-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x2048x1024 .f32) (main_arg1 : FVec F S1024x1024 .f32) (main_arg2 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16x2048x1024 : Shape := ⟨3, ![16, 2048, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S1024x1024, .f32⟩
  | .hbm, ⟨5, _⟩ => ⟨S1024x1024, .bf16⟩
  | .hbm, ⟨6, _⟩ => ⟨S32768x1024, .f32⟩
  | .hbm, ⟨7, _⟩ => ⟨S16x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x2048x1024_S32768x1024 : S16x2048x1024.ShapeCasts S32768x1024
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S32768x1024_S16x2048x1024 : S32768x1024.ShapeCasts S16x2048x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S16x2048x1024, .f32⟩
  | .hbm, ⟨4, _⟩ => ⟨S1x1x1024, .f32⟩
  | .hbm, ⟨5, _⟩ => ⟨S16x2048x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  reducesTo_S16x2048x1024_S16x2048_d2 : S16x2048x1024.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x1024_0_1_2 : S16x2048x1.BroadcastsInDim S16x2048x1024 (![0, 1, 2] : Fin 3 → Fin S16x2048x1024.rank)
  dot_S16x2048x1024_S1024x1024_S16x2048x1024_2_1_01_0_n_n_wf : DotDims.WF S16x2048x1024 S1024x1024 S16x2048x1024 [2] [1] [0, 1] [0] [] []

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf

class Facts : Prop extends Facts₀ where

variable [Facts]
-- ==== Proof.RowGate.lean ====
/-
  The mathematics both programs compute, written once over the extended reals.

  For one row: from the row's logits `l` (1024 of them) and the row's inputs `x`, the softmax weight of entry `g` is
  `exp (l g - top) / ∑ g', exp (l g' - top)` with `top` the row's maximum (taken from `-∞`, and once more against
  `-∞`, as both programs do), and the result is the input gated by its weight plus the input itself:
  `x g · weight g + x g`.  The logits of row `(p, q)` are `∑ k, x[p, q, k] · W[g, k] + b[g]`.

  `gated` is the result over the three-axis array `[16, 2048, 1024]`; `gatedRows` the same function over the
  flattened rows `[32768, 1024]` against a weight matrix already transposed, `∑ k, A[r, k] · Wt[k, g] + b[g]`.
  `gatedRows_eq_gated`: on a flattening of `x` and a transpose of `W` the second is the first, row `2048·p + q`
  being row `(p, q)`.  Nothing here needs a finite input: no sum is reordered and no factor moved.
-/
import Idealize.ShloMosaic.PureOps.Ideal
import Idealize.ShloMosaic.Lib.ValueIdx

open scoped BigOperators

noncomputable section

namespace Cert.RowGate

open Idealize.ShloMosaic Idealize.ShloMosaic.ValueIdx

/-- One row of 1024 extended reals. -/
abbrev Row := Fin 1024 → EReal

/-- The row's maximum, folded from `-∞` and compared with `-∞` once more. -/
def rowTop (l : Row) : EReal :=
  max (Ideal.ofBits .f32 0xFF800000#32) ((Finset.univ : Finset (Fin 1024)).fold max (Ideal.ofBits .f32 0xFF800000#32) l)

/-- The row's shifted exponentials. -/
def rowExp (l : Row) : Row := fun g => Ideal.exp (l g - rowTop l)

/-- The input gated by its softmax weight, plus the input. -/
def rowGate (l x : Row) (g : Fin 1024) : EReal :=
  x g * Ideal.div (rowExp l g) (∑ g' : Fin 1024, rowExp l g') + x g

/-- The logits of row `(p, q)`: the row of `x` against every row of `W`, plus the bias. -/
def logits (x : (⟨3, ![16, 2048, 1024]⟩ : Shape).Idx → EReal) (W : (⟨2, ![1024, 1024]⟩ : Shape).Idx → EReal)
    (b : (⟨1, ![1024]⟩ : Shape).Idx → EReal) (p : Fin 16) (q : Fin 2048) : Row :=
  fun g => (∑ k : Fin 1024, x (ix3 p q k) * W (ix2 g k)) + b (ix1 g)

/-- The result over the three-axis array. -/
def gated (x : (⟨3, ![16, 2048, 1024]⟩ : Shape).Idx → EReal) (W : (⟨2, ![1024, 1024]⟩ : Shape).Idx → EReal)
    (b : (⟨1, ![1024]⟩ : Shape).Idx → EReal) : (⟨3, ![16, 2048, 1024]⟩ : Shape).Idx → EReal :=
  fun i => rowGate (logits x W b (i 0) (i 1)) (fun g => x (ix3 (i 0) (i 1) g)) (i 2)

/-- The logits of flattened row `r` against a weight matrix that is already transposed. -/
def rowLogits (A : (⟨2, ![32768, 1024]⟩ : Shape).Idx → EReal) (Wt : (⟨2, ![1024, 1024]⟩ : Shape).Idx → EReal)
    (b : (⟨1, ![1024]⟩ : Shape).Idx → EReal) (r : Fin 32768) : Row :=
  fun g => (∑ k : Fin 1024, A (ix2 r k) * Wt (ix2 k g)) + b (ix1 g)

/-- The result over the flattened rows. -/
def gatedRows (A : (⟨2, ![32768, 1024]⟩ : Shape).Idx → EReal) (Wt : (⟨2, ![1024, 1024]⟩ : Shape).Idx → EReal)
    (b : (⟨1, ![1024]⟩ : Shape).Idx → EReal) : (⟨2, ![32768, 1024]⟩ : Shape).Idx → EReal :=
  fun i => rowGate (rowLogits A Wt b (i 0)) (fun g => A (ix2 (i 0) g)) (i 1)

/-- On a flattening of `x` (row `r` of `A` is row `(p, q)` of `x`) and a transpose of `W`, the flattened result at
    `(r, g)` is the three-axis result at `(p, q, g)`. -/
theorem gatedRows_eq_gated (x : (⟨3, ![16, 2048, 1024]⟩ : Shape).Idx → EReal) (W : (⟨2, ![1024, 1024]⟩ : Shape).Idx → EReal)
    (b : (⟨1, ![1024]⟩ : Shape).Idx → EReal) (A : (⟨2, ![32768, 1024]⟩ : Shape).Idx → EReal)
    (Wt : (⟨2, ![1024, 1024]⟩ : Shape).Idx → EReal) (p : Fin 16) (q : Fin 2048) (r : Fin 32768) (g : Fin 1024)
    (hA : ∀ k : Fin 1024, A (ix2 r k) = x (ix3 p q k)) (hW : ∀ k g' : Fin 1024, Wt (ix2 k g') = W (ix2 g' k)) :
    gatedRows A Wt b (ix2 r g) = gated x W b (ix3 p q g) := by
  have hl : rowLogits A Wt b r = logits x W b p q := by
    funext g'
    unfold rowLogits logits
    exact congrArg (· + b (ix1 g')) (Finset.sum_congr rfl fun k _ => by rw [hA k, hW k g'])
  have hx : (fun g' : Fin 1024 => A (ix2 r g')) = fun g' => x (ix3 p q g') := funext hA
  show rowGate (rowLogits A Wt b r) (fun g' => A (ix2 r g')) g = rowGate (logits x W b p q) (fun g' => x (ix3 p q g')) g
  rw [hl, hx]

end Cert.RowGate

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.BlockGate.lean ====
/-
  What the kernel's body stores, read at entry `(r, g)` of its block.

  The body loads a block of 1024 rows of the flattened input (`x0`), the whole transposed weight matrix (`x1`) and the
  bias (`x2`).  Its matrix product into the zero accumulator is `∑ k, x0[r, k] · x1[k, g]` (the narrowing of `x0` to
  bf16 is the identity on extended reals); the bias, viewed as one row and broadcast over the rows, adds `x2[g]`: the
  block's logits.  The row maximum (a lane reduction from `-∞`, compared with `-∞` once more), viewed as a column and
  broadcast along the rows, is `rowTop` of row `r`'s logits at every `g`; the exponentials of the differences are
  `rowExp`; their lane sum, again a broadcast column, is the row's sum; and the quotient times `x0[r, g]` plus
  `x0[r, g]` is `rowGate` of row `r`'s logits and row `r` of the block.
-/
import proofs.«107453_j21895743275408_1_alg».proof.Proof.Gen.KernelIdeal.Skeleton
import proofs.«107453_j21895743275408_1_alg».proof.Proof.RowGate
import proofs.«107453_j21895743275408_1_alg».proof.Proof.LibKeepdims
import Idealize.ShloMosaic.Lib.Pipeline.Value
import Idealize.ShloMosaic.Lib.ValueIdx
import Idealize.ShloMosaic.PureOps.Ideal.Laws

open scoped BigOperators

noncomputable section

namespace Cert.BlockGate

open Cert.KernelIdeal Cert.KernelIdeal.Gen Cert.RowGate Cert.LibKeepdims
open Idealize.ShloMosaic Idealize.ShloMosaic.ValueIdx

/-! ## The body's stages as vectors -/

/-- The block's logits: the product into the zero accumulator plus the bias broadcast over the rows. -/
def logitsVec (x0 : FVec Ideal S1024x1024 .f32) (x1 : FVec Ideal S1024x1024 .bf16) (x2 : FVec Ideal S1024 .f32) :
    FVec Ideal S1024x1024 .f32 :=
  addf (matmul dot_S1024x1024_S1024x1024_S1024x1024_1_0_0_1_n_n none
      (truncf .bf16 (shapeCast S1024x1024 x0 shapeCasts_S1024x1024_S1024x1024) bitsLt_bf16_f32)
      (shapeCast S1024x1024 x1 shapeCasts_S1024x1024_S1024x1024) (constant S1024x1024 .f32 0x00000000#32))
    (broadcastTo S1024x1024 (shapeCast S1x1024 x2 shapeCasts_S1024_S1x1024) broadcasts_S1x1024_S1024x1024)

/-- The rows' maxima. -/
def topVec (L : FVec Ideal S1024x1024 .f32) : FVec Ideal S1024 .f32 :=
  maximumf (broadcast S1024 (Scalar.ofBits .f32 0xFF800000#32 : Ideal .f32))
    (multiReduction .maximumf [1] S1024 L 0xFF800000#32 reduces_S1024x1024_S1024 (.inl rfl) rfl)

/-- The exponentials of the logits less their row's maximum. -/
def expVec (L : FVec Ideal S1024x1024 .f32) : FVec Ideal S1024x1024 .f32 :=
  exp (subf L (broadcastTo S1024x1024 (shapeCast S1024x1 (topVec L) shapeCasts_S1024_S1024x1) broadcasts_S1024x1_S1024x1024))

/-- The block `X` gated by the softmax of the logits `L` along the rows, plus `X`. -/
def gateVec (L X : FVec Ideal S1024x1024 .f32) : FVec Ideal S1024x1024 .f32 :=
  addf (mulf X (divf (expVec L) (broadcastTo S1024x1024 (shapeCast S1024x1
      (multiReduction .add [1] S1024 (expVec L) 0x00000000#32 reduces_S1024x1024_S1024 (.inl rfl) rfl)
      shapeCasts_S1024_S1024x1) broadcasts_S1024x1_S1024x1024))) X

/-- The stored value is these stages composed. -/
theorem pay_eq (x0 : FVec Ideal S1024x1024 .f32) (x1 : FVec Ideal S1024x1024 .bf16) (x2 : FVec Ideal S1024 .f32) :
    k0_pay1 (F := Ideal) x0 x1 x2
      = gateVec (logitsVec x0 x1 x2) (shapeCast S1024x1024 x0 shapeCasts_S1024x1024_S1024x1024) := rfl

/-! ## Each stage at an entry -/

/-- A lane reduction's source index over row `r` at lane `k` is `(r, k)`. -/
theorem lane_idx (r k : Fin 1024) : reduces_S1024x1024_S1024.lift (ix1 r) k = ix2 r k :=
  funext fun a => Fin.ext (by match a with | ⟨0, _⟩ => rfl | ⟨1, _⟩ => rfl)

/-- The product's operand indices at output entry `i` and contraction index `q`: the left operand is read at row
    `i 0` and column `q`, the right one at row `q` and column `i 1`. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product into the zero accumulator at `(r, c)`: the sum over the contracted coordinate. -/
theorem product_at (l w : FVec Ideal S1024x1024 .bf16) (r c : Fin 1024) :
    matmul dot_S1024x1024_S1024x1024_S1024x1024_1_0_0_1_n_n none l w (constant (F := Ideal) S1024x1024 .f32 0x00000000#32) (ix2 r c)
      = ∑ k : Fin 1024, l (ix2 r k) * w (ix2 k c) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r c)
      ((contrEquiv1 dot_S1024x1024_S1024x1024_S1024x1024_1_0_0_1_n_n 1024 rfl rfl).symm k) = ix2 r k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 r c)
      ((contrEquiv1 dot_S1024x1024_S1024x1024_S1024x1024_1_0_0_1_n_n 1024 rfl rfl).symm k) = ix2 k c :=
    funext fun a => Fin.ext (by
      match a with
      | ⟨0, _⟩ => exact (rhs_row _ _).trans hk
      | ⟨1, _⟩ => exact rhs_col _ _)
  rw [el, er]

/-- The block's logit at `(r, g)`. -/
theorem logitsVec_at (x0 : FVec Ideal S1024x1024 .f32) (x1 : FVec Ideal S1024x1024 .bf16) (x2 : FVec Ideal S1024 .f32)
    (r g : Fin 1024) :
    logitsVec x0 x1 x2 (ix2 r g) = (∑ k : Fin 1024, x0 (ix2 r k) * x1 (ix2 k g)) + x2 (ix1 g) := by
  unfold logitsVec
  rw [addf_apply, product_at, rowdims_apply]
  simp only [shapeCast_self]
  rfl

/-- A lane maximum at row `r`: the fold of `max` from `-∞` over the row. -/
theorem laneMax_at (L : FVec Ideal S1024x1024 .f32) (r : Fin 1024) :
    multiReduction .maximumf [1] S1024 L 0xFF800000#32 reduces_S1024x1024_S1024 (.inl rfl) rfl (ix1 r)
      = (Finset.univ : Finset (Fin 1024)).fold max (Ideal.ofBits .f32 0xFF800000#32) (fun g => L (ix2 r g)) := by
  refine (Ideal.multiReduction_maximumf_single L 0xFF800000#32 reduces_S1024x1024_S1024 (.inl rfl) rfl (ix1 r)).trans ?_
  have ef : (L ∘ reduces_S1024x1024_S1024.lift (ix1 r)) = fun g : Fin 1024 => L (ix2 r g) :=
    funext fun (k : Fin 1024) => congrArg L (lane_idx r k)
  rw [ef]
  rfl

/-- The row maximum at `r` is `rowTop` of the row. -/
theorem topVec_at (L : FVec Ideal S1024x1024 .f32) (r : Fin 1024) :
    topVec L (ix1 r) = rowTop (fun g => L (ix2 r g)) := by
  unfold topVec rowTop
  rw [maximumf_apply, laneMax_at, broadcast_apply]
  rfl

/-- The exponential of a vector at an entry. -/
theorem exp_at {s : Shape} {φ : FTy} (x : FVec Ideal s φ) (i : s.Idx) : exp x i = Ideal.exp (x i) := rfl

/-- A lane sum at row `r`: the sum over the row (the accumulator's `0` adds nothing). -/
theorem laneSum_at (E : FVec Ideal S1024x1024 .f32) (r : Fin 1024) :
    multiReduction .add [1] S1024 E 0x00000000#32 reduces_S1024x1024_S1024 (.inl rfl) rfl (ix1 r)
      = ∑ k : Fin 1024, E (ix2 r k) :=
  (Ideal.multiReduction_add_single E 0x00000000#32 reduces_S1024x1024_S1024 (.inl rfl) rfl (ix1 r)).trans
    (Finset.sum_congr rfl fun (k : Fin 1024) _ => congrArg E (lane_idx r k))

/-- The shifted exponential at `(r, g)` is `rowExp` of the row. -/
theorem expVec_at (L : FVec Ideal S1024x1024 .f32) (r g : Fin 1024) :
    expVec L (ix2 r g) = rowExp (fun g' => L (ix2 r g')) g := by
  unfold expVec rowExp
  rw [exp_at, subf_apply, keepdims_apply, topVec_at]

/-- The gated block at `(r, g)` is `rowGate` of the row's logits and the row. -/
theorem gateVec_at (L X : FVec Ideal S1024x1024 .f32) (r g : Fin 1024) :
    gateVec L X (ix2 r g) = rowGate (fun g' => L (ix2 r g')) (fun g' => X (ix2 r g')) g := by
  have hs : (∑ k : Fin 1024, expVec L (ix2 r k)) = ∑ k : Fin 1024, rowExp (fun g' => L (ix2 r g')) k :=
    Finset.sum_congr rfl fun k _ => expVec_at L r k
  unfold gateVec rowGate
  rw [addf_apply, mulf_apply, divf_apply, keepdims_apply, laneSum_at, expVec_at, hs]

/-- THE STORED VALUE at `(r, g)`: `rowGate` of row `r`'s logits — the row of `x0` against the columns of `x1`, plus
    `x2` — and row `r` of `x0`. -/
theorem payload_at (x0 : FVec Ideal S1024x1024 .f32) (x1 : FVec Ideal S1024x1024 .bf16) (x2 : FVec Ideal S1024 .f32)
    (r g : Fin 1024) :
    k0_pay1 (F := Ideal) x0 x1 x2 (ix2 r g)
      = rowGate (fun g' => (∑ k : Fin 1024, x0 (ix2 r k) * x1 (ix2 k g')) + x2 (ix1 g')) (fun g' => x0 (ix2 r g')) g := by
  rw [pay_eq, gateVec_at]
  have e1 : (fun g' : Fin 1024 => logitsVec x0 x1 x2 (ix2 r g'))
      = fun g' => (∑ k : Fin 1024, x0 (ix2 r k) * x1 (ix2 k g')) + x2 (ix1 g') :=
    funext fun g' => logitsVec_at x0 x1 x2 r g'
  have e2 : (fun g' : Fin 1024 => shapeCast S1024x1024 x0 shapeCasts_S1024x1024_S1024x1024 (ix2 r g'))
      = fun g' => x0 (ix2 r g') := by rw [shapeCast_self]
  rw [e1, e2]

end Cert.BlockGate

end
-- ==== Proof.KernelRows.lean ====
/-
  The kernel's output array after the region: `gatedRows` of the arrays the region finds.

  Grid point `t` works on rows `1024·t … 1024·t + 1023` of the flattened input and of the output, against the whole
  transposed weight matrix and the whole bias (their blocks are the arrays themselves at every point).  So what point `t`
  writes back, entry `(r, g)` of its block, is `rowGate` of the logits of row `1024·t + r` of the input array — which
  is entry `(1024·t + r, g)` of `gatedRows`: each written block is a block of ONE function of the arrays.  The 32 blocks
  of 1024 rows cover the 32768 rows (row `i` lies in block `i / 1024`), so the output array ends as `gatedRows`.
-/
import proofs.«107453_j21895743275408_1_alg».proof.Proof.Gen.KernelIdeal.Frame
import proofs.«107453_j21895743275408_1_alg».proof.Proof.BlockGate
import Idealize.ShloMosaic.Lib.Pipeline.Value

open scoped BigOperators

noncomputable section

namespace Cert.KernelRows

open Cert.KernelIdeal Cert.KernelIdeal.Gen Cert.RowGate Cert.BlockGate
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- An entry of a written block is the entry of `gatedRows` it lands on, once the block of the input holds the rows it
    lands on (`h0`), the other two blocks are their whole arrays, and the column is kept (`hi`). -/
theorem block_entry (x0 : FVec Ideal S1024x1024 .f32) (x1 : FVec Ideal S1024x1024 .bf16) (x2 : FVec Ideal S1024 .f32)
    (A0 : FVec Ideal S32768x1024 .f32) (A1 : FVec Ideal S1024x1024 .bf16) (A2 : FVec Ideal S1024 .f32)
    (y : S1024x1024.Idx) (i : S32768x1024.Idx)
    (h0 : ∀ k : Fin 1024, x0 (ix2 (y 0) k) = A0 (ix2 (i 0) k)) (h1 : x1 = A1) (h2 : x2 = A2) (hi : (i 1).val = (y 1).val) :
    k0_pay1 (F := Ideal) x0 x1 x2 y = gatedRows A0 A1 A2 i := by
  subst h1 h2
  obtain ⟨r, g, rfl⟩ : ∃ (r g : Fin 1024), y = ix2 r g := ⟨y 0, y 1, eq_ix2 y⟩
  obtain ⟨r', g', rfl⟩ : ∃ (r' : Fin 32768) (g' : Fin 1024), i = ix2 r' g' := ⟨i 0, i 1, eq_ix2 i⟩
  obtain rfl : g' = g := Fin.ext hi
  have h0' : ∀ k : Fin 1024, x0 (ix2 r k) = A0 (ix2 r' k) := h0
  rw [payload_at]
  have e1 : (fun g'' : Fin 1024 => (∑ k : Fin 1024, x0 (ix2 r k) * x1 (ix2 k g'')) + x2 (ix1 g'')) = rowLogits A0 x1 x2 r' :=
    funext fun g'' => by
      show _ = (∑ k : Fin 1024, A0 (ix2 r' k) * x1 (ix2 k g'')) + x2 (ix1 g'')
      simp only [h0']
  have e2 : (fun g'' : Fin 1024 => x0 (ix2 r g'')) = fun g'' => A0 (ix2 r' g'') := funext h0'
  rw [e1, e2]
  rfl

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input and the output move together down the rows, one block per point;
    the weight matrix and the bias stay at block zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) = t.val :=
  (by decide +kernel : ∀ t : Fin grid0.N, _)

/-- WHAT POINT `t` WRITES BACK is block `t` of `gatedRows` of the arrays as the region finds them. -/
theorem flushed_eq (c : Dev nD) (t : Fin cfg0.N) :
    (dats m 0 c).flushed 3 t
      = ((cfg0.win 3).blk t).view.read (Elt Ideal) (gatedRows (V m c main_v0) (V m c main_v2) (V m c main_arg2)) := by
  show (cfg0.win 3).cut (grid0.coords t) ((dats m 0 c).after 3 t) = _
  rw [after0_3]
  unfold out0_3
  rw [View.canon_unit_zero hz2]
  simp only [View.ld_unit_zero (S := S1024x1024) hz2, View.ld_unit_zero (S := S1024) hz1]
  obtain ⟨e0, e1, e2, e3, e4, e5, e6⟩ := idx_facts t
  funext j
  show k0_pay1 (F := Ideal) (iblk m c 0 t) (iblk m c 1 t) (iblk m c 2 t) j
      = gatedRows (V m c main_v0) (V m c main_v2) (V m c main_arg2) (((cfg0.win 3).blk t).view.emb j)
  refine block_entry (iblk m c 0 t) (iblk m c 1 t) (iblk m c 2 t) (V m c main_v0) (V m c main_v2) (V m c main_arg2) j
    (((cfg0.win 3).blk t).view.emb j) ?_ ?_ ?_ ?_
  · intro k
    show V m c main_v0 (((cfg0.win 0).blk t).view.emb (ix2 (j 0) k))
        = V m c main_v0 (ix2 ((((cfg0.win 3).blk t).view.emb j) 0) k)
    refine congrArg (V m c main_v0) (funext fun a => Fin.ext ?_)
    match a with
    | ⟨0, _⟩ =>
      show win0_0.index t (0 : Fin 2) * 1024 + 1 * (j 0).val = win0_3.index t (0 : Fin 2) * 1024 + 1 * (j 0).val
      rw [e0]
    | ⟨1, _⟩ =>
      show win0_0.index t (1 : Fin 2) * 1024 + 1 * k.val = k.val
      rw [e1]; omega
  · funext z
    show V m c main_v2 (((cfg0.win 1).blk t).view.emb z) = V m c main_v2 z
    refine congrArg (V m c main_v2) (funext fun a => Fin.ext ?_)
    match a with
    | ⟨0, _⟩ =>
      show win0_1.index t (0 : Fin 2) * 1024 + 1 * (z 0).val = (z 0).val
      rw [e2]; omega
    | ⟨1, _⟩ =>
      show win0_1.index t (1 : Fin 2) * 1024 + 1 * (z 1).val = (z 1).val
      rw [e3]; omega
  · funext z
    show V m c main_arg2 (((cfg0.win 2).blk t).view.emb z) = V m c main_arg2 z
    refine congrArg (V m c main_arg2) (funext fun a => Fin.ext ?_)
    match a with
    | ⟨0, _⟩ =>
      show win0_2.index t (0 : Fin 1) * 1024 + 1 * (z 0).val = (z 0).val
      rw [e4]; omega
  · show win0_3.index t (1 : Fin 2) * 1024 + 1 * (j 1).val = (j 1).val
    rw [e5]; omega

/-- An index of the output array is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Every row lies in the block of the point `row / 1024`, which writes its block back. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : grid0.N = 32 := N_0
  obtain ⟨t, ht⟩ : ∃ t : Fin cfg0.N, t.val = (i 0).val / 1024 := ⟨⟨(i 0).val / 1024, by show _ < grid0.N; rw [hN]; omega⟩, rfl⟩
  obtain ⟨e0, e1, e2, e3, e4, e5, e6⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e5]; omega

/-- THE OUTPUT ARRAY after the region. -/
theorem final (c : Dev nD) :
    (dats m 0 c).arrAt 3 cfg0.N = gatedRows (V m c main_v0) (V m c main_v2) (V m c main_arg2) :=
  (dats m 0 c).arrAt_eq_of_cover 3 (gatedRows (V m c main_v0) (V m c main_v2) (V m c main_arg2))
    (fun t _ => flushed_eq m c t) covered

end Cert.KernelRows

end
-- ==== Proof.Flatten.lean ====
/-
  Flattening and un-flattening around `gatedRows`.

  The kernel's program flattens `x : [16, 2048, 1024]` to `[32768, 1024]` rows (row `2048·p + q` is row `(p, q)`: both
  orders are row-major), transposes `W` (entry `(k, g)` of the transpose is `W[g, k]`; the narrowing to bf16 that follows
  is the identity on extended reals), computes `gatedRows` and views the `[32768, 1024]` result as `[16, 2048, 1024]`
  again.  Entry `(p, q, g)` of that is entry `(2048·p + q, g)` of `gatedRows`, which `gatedRows_eq_gated` identifies
  with `gated x W b` at `(p, q, g)`.
-/
import proofs.«107453_j21895743275408_1_alg».proof.Proof.RowGate
import Idealize.ShloMosaic.Lib.Pipeline.Value
import Idealize.ShloMosaic.Lib.ValueLayout

open scoped BigOperators

noncomputable section

namespace Cert.Flatten

open Cert.RowGate Idealize.ShloMosaic Idealize.ShloMosaic.ValueIdx

/-- Row `2048·p + q` of the flattened array. -/
def rowOf (p : Fin 16) (q : Fin 2048) : Fin 32768 := ⟨p.val * 2048 + q.val, by have := p.isLt; have := q.isLt; omega⟩

/-- The flattened array at `(2048·p + q, k)` is the array at `(p, q, k)`. -/
theorem flat_apply (x : (⟨3, ![16, 2048, 1024]⟩ : Shape).Idx → EReal)
    (h : (⟨3, ![16, 2048, 1024]⟩ : Shape).ShapeCasts ⟨2, ![32768, 1024]⟩) (p : Fin 16) (q : Fin 2048) (k : Fin 1024) :
    shapeCast ⟨2, ![32768, 1024]⟩ x h (ix2 (rowOf p q) k) = x (ix3 p q k) :=
  shapeCast_apply x h _ _ (by
    rw [Shape.rowMajor_val_three, Shape.rowMajor_val_two]
    show (p.val * 2048 + q.val) * 1024 + k.val = (p.val * 2048 + q.val) * 1024 + k.val
    rfl)

/-- A `[32768, 1024]` array viewed as `[16, 2048, 1024]` reads, at `(p, q, g)`, the array at `(2048·p + q, g)`. -/
theorem unflat_apply (A : (⟨2, ![32768, 1024]⟩ : Shape).Idx → EReal)
    (h : (⟨2, ![32768, 1024]⟩ : Shape).ShapeCasts ⟨3, ![16, 2048, 1024]⟩) (p : Fin 16) (q : Fin 2048) (g : Fin 1024) :
    shapeCast ⟨3, ![16, 2048, 1024]⟩ A h (ix3 p q g) = A (ix2 (rowOf p q) g) :=
  shapeCast_apply A h _ _ (by
    rw [Shape.rowMajor_val_three, Shape.rowMajor_val_two]
    show (p.val * 2048 + q.val) * 1024 + g.val = (p.val * 2048 + q.val) * 1024 + g.val
    rfl)

/-- The whole round trip: flatten `x`, transpose and narrow `W`, gate the rows, view the result as three axes again —
    that is `gated x W b`. -/
theorem roundtrip (x : FVec Ideal ⟨3, ![16, 2048, 1024]⟩ .f32) (W : FVec Ideal ⟨2, ![1024, 1024]⟩ .f32)
    (b : FVec Ideal ⟨1, ![1024]⟩ .f32)
    (h1 : (⟨3, ![16, 2048, 1024]⟩ : Shape).ShapeCasts ⟨2, ![32768, 1024]⟩)
    (h2 : (⟨2, ![32768, 1024]⟩ : Shape).ShapeCasts ⟨3, ![16, 2048, 1024]⟩)
    (h3 : (⟨2, ![1024, 1024]⟩ : Shape).Transposes [1, 0] ⟨2, ![1024, 1024]⟩) (h4 : FTy.bits .bf16 < FTy.bits .f32) :
    shapeCast ⟨3, ![16, 2048, 1024]⟩
        (gatedRows (shapeCast ⟨2, ![32768, 1024]⟩ x h1)
          (truncf .bf16 (transpose (⟨2, ![1024, 1024]⟩ : Shape) [1, 0] W h3) h4 : FVec Ideal ⟨2, ![1024, 1024]⟩ .bf16) b) h2
      = gated x W b := by
  funext i
  obtain ⟨p, q, g, rfl⟩ : ∃ (p : Fin 16) (q : Fin 2048) (g : Fin 1024), i = ix3 p q g := ⟨i 0, i 1, i 2, eq_ix3 i⟩
  refine (unflat_apply _ h2 p q g).trans ?_
  exact gatedRows_eq_gated x W b _ _ p q (rowOf p q) g (fun k => flat_apply x h1 p q k)
    (fun k g' => transpose_ix2_apply W h3 k g')

end Cert.Flatten

end
-- ==== Proof.KernelGate.lean ====
/-
  The kernel's program computes `gated`.

  Before the region the host flattens `x` (the region's input array), transposes `W` and narrows it to bf16 (the region's
  weight array); the bias goes in as launched.  The region leaves its output array at `gatedRows` of those three
  (`KernelRows.final`).  After the region the one host operation views the output as `[16, 2048, 1024]` again, and
  `Flatten.roundtrip` identifies the whole composition with `gated` of the launched arguments.  The run is the generated
  frame run, whose post names the result of the operations after the region and keeps the arguments.
-/
import proofs.«107453_j21895743275408_1_alg».proof.Proof.KernelRows
import proofs.«107453_j21895743275408_1_alg».proof.Proof.Flatten
import Idealize.ShloMosaic.Lib.StableHlo.Run

noncomputable section

namespace Cert.KernelGate

open Cert.KernelIdeal Cert.KernelIdeal.Gen Cert.RowGate
open Idealize.ShloMosaic Idealize.ShloMosaic.TcCoe Idealize.ShloMosaic.StableHlo Idealize.SL.Sem

variable (m : (ℓ : Loc nD τ sig) → Buf (Elt Ideal) ℓ) (ρ : Dev nD → PrngReg)

/-- The region's input array is the flattened `x`. -/
theorem input_rows (c : Dev nD) :
    (V m c main_v0 : S32768x1024.Idx → EReal)
      = shapeCast S32768x1024 (m ((c : Thread nD τ).loc main_arg0)) shapeCasts_S16x2048x1024_S32768x1024 := by
  show StableHlo.after hostOps0 (fun b => m (c, b)) (Proc.devRef .tc main_v0) = _
  after_results
  rfl

/-- The region's weight array is the transpose of `W`, narrowed. -/
theorem weight_cols (c : Dev nD) :
    (V m c main_v2 : S1024x1024.Idx → EReal)
      = truncf (F := Ideal) .bf16
          (transpose S1024x1024 [1, 0] (m ((c : Thread nD τ).loc main_arg1)) transposes_S1024x1024_S1024x1024_1_0)
          bitsLt_bf16_f32 := by
  show StableHlo.after hostOps0 (fun b => m (c, b)) (Proc.devRef .tc main_v2) = _
  after_results

/-- The result of the operation after the region: the output array viewed as three axes. -/
theorem result_unflat (c : Dev nD) :
    (Pipeline.afterTail₀ cfgs (dats m) 0 (V0 m) [hostOps1] c main_v4 : S16x2048x1024.Idx → EReal)
      = shapeCast S16x2048x1024 (gatedRows (V m c main_v0) (V m c main_v2) (V m c main_arg2))
          shapeCasts_S32768x1024_S16x2048x1024 := by
  unfold Pipeline.afterTail₀
  show StableHlo.after hostOps1 _ (Proc.devRef .tc main_v4) = _
  after_results
  rw [(Pipeline.withArrays_arr spec0 launch0.win.arr_inj c _ _ 3).trans (Cert.KernelRows.final m c)]
  rfl

/-- The kernel's result is `gated` of the launched arguments. -/
theorem result_eq (c : Dev nD) :
    (Pipeline.afterTail₀ cfgs (dats m) 0 (V0 m) [hostOps1] c main_v4 : S16x2048x1024.Idx → EReal)
      = gated (m ((c : Thread nD τ).loc main_arg0)) (m ((c : Thread nD τ).loc main_arg1)) (m ((c : Thread nD τ).loc main_arg2)) := by
  rw [result_unflat, input_rows, weight_cols, V_main_arg2]
  exact Cert.Flatten.roundtrip _ _ _ shapeCasts_S16x2048x1024_S32768x1024 shapeCasts_S32768x1024_S16x2048x1024
    transposes_S1024x1024_S1024x1024_1_0 bitsLt_bf16_f32

/-- THE KERNEL'S RUN: every weakly fair execution terminates with the result array at `gated` of the arguments and the
    arguments as launched. -/
theorem run : θ_run defs (onTc (τ := τ) (main (F := Ideal))) ⟨m, fun _ => 0, ρ⟩ fun r => ∀ c : Dev nD,
      r.2.mem ((c.tc : Thread nD τ).loc main_v4)
        = gated (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelGate

end
-- ==== Proof.ReferenceGate.lean ====
/-
  The reference computes `gated`.

  Read one operation at a time (the generated stages `val_main_v…`), at the index `(p, q, g)`: the `dot_general` with
  the bias broadcast along the rows is the logit `∑ k, x[p, q, k] · W[g, k] + b[g]`; the `reduce` by maximum over the last
  axis is the fold of `max` from `-∞` over the row's logits, and the `maximum` with the `-∞` splat makes it `rowTop`; the
  exponential of the difference is `rowExp`; the `reduce` by addition from `0` is the row's sum of them; the quotient, the
  product with `x` and the sum with `x` are `rowGate`.
-/
import proofs.«107453_j21895743275408_1_alg».proof.Proof.Gen.ReferenceIdeal.Read
import proofs.«107453_j21895743275408_1_alg».proof.Proof.RowGate

open scoped BigOperators

noncomputable section

namespace Cert.ReferenceGate

open Cert.ReferenceIdeal Cert.ReferenceIdeal.Gen Cert.ReferenceIdeal.Read Cert.RowGate
open Idealize.ShloMosaic Idealize.ShloMosaic.ValueIdx

variable (x : FVec Ideal S16x2048x1024 .f32) (W : FVec Ideal S1024x1024 .f32) (b : FVec Ideal S1024 .f32)

/-- The biased product at `(p, q, g)` is the logit. -/
theorem logit_at (p : Fin 16) (q : Fin 2048) (g : Fin 1024) :
    val_main_v3 (F := Ideal) x W b (ix3 p q g) = logits x W b p q g := by
  have el : ∀ k : Fin 1024, lidx_main_v0 (ix3 p q g) k = ix3 p q k := fun k =>
    funext fun a => Fin.ext (by match a with | ⟨0, _⟩ => rfl | ⟨1, _⟩ => rfl | ⟨2, _⟩ => rfl)
  have er : ∀ k : Fin 1024, ridx_main_v0 (ix3 p q g) k = ix2 g k := fun k =>
    funext fun a => Fin.ext (by match a with | ⟨0, _⟩ => rfl | ⟨1, _⟩ => rfl)
  have eb : idx_main_v1 (idx_main_v2 (ix3 p q g)) = ix1 g :=
    funext fun a => Fin.ext (by match a with | ⟨0, _⟩ => rfl)
  rw [val_main_v3_apply, val_main_v0_apply, val_main_v2_apply, val_main_v1_apply, eb]
  simp only [el, er]
  rfl

/-- The maximum over the last axis at `(p, q)`: the fold of `max` from `-∞` over the row's logits. -/
theorem max_at (p : Fin 16) (q : Fin 2048) :
    val_main_v4 (F := Ideal) x W b (ix2 p q)
      = (Finset.univ : Finset (Fin 1024)).fold max (Ideal.ofBits .f32 0xFF800000#32) (logits x W b p q) := by
  have h : S16x2048x1024.Reduces [2] S16x2048 := by decide
  unfold val_main_v4
  rw [Host.reduce_eq_fold_single FloatOps.maximumf _ _ reducesTo_S16x2048x1024_S16x2048_d2 h h_S_ (ix2 p q)]
  have ek : ∀ k : Fin 1024, h.lift (ix2 p q) k = ix3 p q k := fun k =>
    funext fun a => Fin.ext (by match a with | ⟨0, _⟩ => rfl | ⟨1, _⟩ => rfl | ⟨2, _⟩ => rfl)
  have ef : (val_main_v3 (F := Ideal) x W b ∘ h.lift (ix2 p q)) = logits x W b p q :=
    funext fun (k : Fin 1024) => (congrArg (val_main_v3 (F := Ideal) x W b) (ek k)).trans (logit_at x W b p q k)
  rw [ef]
  rfl

/-- Compared once more with the `-∞` splat it is the row's `rowTop`. -/
theorem top_at (p : Fin 16) (q : Fin 2048) :
    val_main_v6 (F := Ideal) x W b (ix2 p q) = rowTop (logits x W b p q) := by
  rw [val_main_v6_apply, val_main_v5_apply, max_at]
  rfl

/-- The exponential of the logit less the row's top. -/
theorem exp_at (p : Fin 16) (q : Fin 2048) (g : Fin 1024) :
    val_main_v10 (F := Ideal) x W b (ix3 p q g) = rowExp (logits x W b p q) g := by
  have e : idx_main_v7 (idx_main_v8 (ix3 p q g)) = ix2 p q :=
    funext fun a => Fin.ext (by match a with | ⟨0, _⟩ => rfl | ⟨1, _⟩ => rfl)
  rw [val_main_v10_apply, val_main_v9_apply, logit_at, val_main_v8_apply, val_main_v7_apply, e, top_at]
  rfl

/-- The sum over the last axis at `(p, q)`: the row's sum of exponentials (the initial value is `0`). -/
theorem sum_at (p : Fin 16) (q : Fin 2048) :
    val_main_v11 (F := Ideal) x W b (ix2 p q) = ∑ g' : Fin 1024, rowExp (logits x W b p q) g' := by
  rw [val_main_v11_apply]
  have e : ∀ k : Fin 1024, idx_main_v11 (ix2 p q) k = ix3 p q k := fun k =>
    funext fun a => Fin.ext (by match a with | ⟨0, _⟩ => rfl | ⟨1, _⟩ => rfl | ⟨2, _⟩ => rfl)
  simp only [e, exp_at]
  show Ideal.ofBits .f32 0x00000000#32 + _ = _
  rw [Ideal.ofBits_zero_f32, zero_add]

/-- The reference's result is `gated` of its arguments. -/
theorem result_eq : val_main_v16 (F := Ideal) x W b = gated x W b := by
  funext i
  obtain ⟨p, q, g, rfl⟩ : ∃ (p : Fin 16) (q : Fin 2048) (g : Fin 1024), i = ix3 p q g := ⟨i 0, i 1, i 2, eq_ix3 i⟩
  have e : idx_main_v12 (idx_main_v13 (ix3 p q g)) = ix2 p q :=
    funext fun a => Fin.ext (by match a with | ⟨0, _⟩ => rfl | ⟨1, _⟩ => rfl)
  rw [val_main_v16_apply, val_main_v15_apply, val_main_v14_apply, exp_at, val_main_v13_apply, val_main_v12_apply, e, sum_at]
  rfl

end Cert.ReferenceGate

end
-- ==== Proof.lean ====
/-
  The certificate: a feature-wise attention gate, `out = x · softmax(x · Wᵀ + b) + x` along the last axis.

  The kernel's program flattens `x : [16, 2048, 1024]` to 32768 rows, transposes `W` and narrows it to bf16, and runs a
  pipelined region over 32 blocks of 1024 rows: per block the product with the whole transposed matrix into a zero
  accumulator, the bias, the row maximum, the shifted exponentials, their row sum, the quotient, the product with the
  block and the sum with it; then it views the result as three axes again.  The reference does the same with
  whole-array operations on the three-axis array.  On extended reals, where a change of float format is the identity, both are ONE
  function of the arguments, `RowGate.gated`: entry `(p, q, g)` is `rowGate` of row `(p, q)`'s logits
  `∑ k, x[p, q, k] · W[g, k] + b[g]` and of the row itself.  No law that needs finite inputs is used: the two sides
  build the same sums and the same maxima, read through different layouts.

  The kernel's side: `BlockGate` (the stored value at an entry of a block), `KernelRows` (each written block is a block
  of `gatedRows`; the blocks cover the output), `Flatten` and `KernelGate` (the host operations around the region, and
  the run).  The reference's side: `ReferenceGate` (its operations read one at a time).  The three frames are the
  generated frame runs (the reference's with its result dropped); the idealized kernel rewrites nothing of the kernel,
  so `preserves` states nothing.
-/
import proofs.«107453_j21895743275408_1_alg».proof.Defs
import proofs.«107453_j21895743275408_1_alg».proof.Proof.Gen.Kernel
import proofs.«107453_j21895743275408_1_alg».proof.Proof.Gen.Kernel.Skeleton
import proofs.«107453_j21895743275408_1_alg».proof.Proof.Gen.Kernel.Launch
import proofs.«107453_j21895743275408_1_alg».proof.Proof.Gen.Kernel.Points
import proofs.«107453_j21895743275408_1_alg».proof.Proof.Gen.Kernel.Frame
import proofs.«107453_j21895743275408_1_alg».proof.Proof.Gen.KernelIdeal
import proofs.«107453_j21895743275408_1_alg».proof.Proof.Gen.KernelIdeal.Skeleton
import proofs.«107453_j21895743275408_1_alg».proof.Proof.Gen.KernelIdeal.Launch
import proofs.«107453_j21895743275408_1_alg».proof.Proof.Gen.KernelIdeal.Points
import proofs.«107453_j21895743275408_1_alg».proof.Proof.Gen.KernelIdeal.Frame
import proofs.«107453_j21895743275408_1_alg».proof.Proof.Gen.ReferenceIdeal
import proofs.«107453_j21895743275408_1_alg».proof.Proof.Gen.ReferenceIdeal.Run
import proofs.«107453_j21895743275408_1_alg».proof.Proof.Gen.ReferenceIdeal.Read
import proofs.«107453_j21895743275408_1_alg».proof.Proof.Gen.Pre_finite_inputs
import proofs.«107453_j21895743275408_1_alg».proof.Proof.KernelGate
import proofs.«107453_j21895743275408_1_alg».proof.Proof.ReferenceGate
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at `gated` of the arguments, which agree. -/
theorem algebraic : Cert.algebraic_KernelIdeal_ReferenceIdeal := by
  intro m ρ m' ρ' _ hagree
  refine ⟨fun c => Cert.RowGate.gated
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelGate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceGate.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
